-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x2048 : Shape := ⟨3, ![32, 512, 2048]⟩
abbrev S32x768x2048 : Shape := ⟨3, ![32, 768, 2048]⟩
abbrev S32x2048x768 : Shape := ⟨3, ![32, 2048, 768]⟩
abbrev S_ : Shape := ⟨0, ![]⟩

class Facts : Prop where
  bcast_S_S32x512x2048 : S_.BroadcastsInDim S32x512x2048 (![] : Fin 0 → Fin S32x512x2048.rank)
  reducesTo_S32x512x2048_S_d0_1_2 : S32x512x2048.ReducesTo [0, 1, 2] S_
  h_S_ : 0 < S_.numel
  bcast_S_S32x768x2048 : S_.BroadcastsInDim S32x768x2048 (![] : Fin 0 → Fin S32x768x2048.rank)
  reducesTo_S32x768x2048_S_d0_1_2 : S32x768x2048.ReducesTo [0, 1, 2] S_
  bcast_S_S32x2048x768 : S_.BroadcastsInDim S32x2048x768 (![] : Fin 0 → Fin S32x2048x768.rank)
  reducesTo_S32x2048x768_S_d0_1_2 : S32x2048x768.ReducesTo [0, 1, 2] S_

variable [Facts]

def fn_part1 {F : FTy → Type} [FloatOps F] (main_v13 : IVec S_ 1) (main_v16 : IVec S32x2048x768 1) : IVec S_ 1 :=
  let main_c_5 : IVec S_ 1 := constantI S_ 1 1#1
  let main_v17 : IVec S_ 1 := (fun x v => Host.reduce IntOp.andi x v reducesTo_S32x2048x768_S_d0_1_2 h_S_) main_v16 main_c_5
  let main_v18 : IVec S_ 1 := andi main_v13 main_v17
  main_v18

def fn {F : FTy → Type} [FloatOps F] (main_arg0 : FVec F S32x512x2048 .f32) (main_arg1 : FVec F S32x768x2048 .f32) (main_arg2 : FVec F S32x768x2048 .f32) (main_arg3 : FVec F S32x2048x768 .f32) : IVec S_ 1 :=
  let main_v0 : FVec F S32x512x2048 .f32 := Host.absf main_arg0
  let main_cst : FVec F S_ .f32 := constant S_ .f32 0x7F800000#32
  let main_v1 : FVec F S32x512x2048 .f32 := broadcastInDim S32x512x2048 ![] bcast_S_S32x512x2048 main_cst
  let main_v2 : IVec S32x512x2048 1 := cmpf .olt main_v0 main_v1
  let main_c : IVec S_ 1 := constantI S_ 1 1#1
  let main_v3 : IVec S_ 1 := (fun x v => Host.reduce IntOp.andi x v reducesTo_S32x512x2048_S_d0_1_2 h_S_) main_v2 main_c
  let main_v4 : FVec F S32x768x2048 .f32 := Host.absf main_arg1
  let main_cst_0 : FVec F S_ .f32 := constant S_ .f32 0x7F800000#32
  let main_v5 : FVec F S32x768x2048 .f32 := broadcastInDim S32x768x2048 ![] bcast_S_S32x768x2048 main_cst_0
  let main_v6 : IVec S32x768x2048 1 := cmpf .olt main_v4 main_v5
  let main_c_1 : IVec S_ 1 := constantI S_ 1 1#1
  let main_v7 : IVec S_ 1 := (fun x v => Host.reduce IntOp.andi x v reducesTo_S32x768x2048_S_d0_1_2 h_S_) main_v6 main_c_1
  let main_v8 : IVec S_ 1 := andi main_v3 main_v7
  let main_v9 : FVec F S32x768x2048 .f32 := Host.absf main_arg2
  let main_cst_2 : FVec F S_ .f32 := constant S_ .f32 0x7F800000#32
  let main_v10 : FVec F S32x768x2048 .f32 := broadcastInDim S32x768x2048 ![] bcast_S_S32x768x2048 main_cst_2
  let main_v11 : IVec S32x768x2048 1 := cmpf .olt main_v9 main_v10
  let main_c_3 : IVec S_ 1 := constantI S_ 1 1#1
  let main_v12 : IVec S_ 1 := (fun x v => Host.reduce IntOp.andi x v reducesTo_S32x768x2048_S_d0_1_2 h_S_) main_v11 main_c_3
  let main_v13 : IVec S_ 1 := andi main_v8 main_v12
  let main_v14 : FVec F S32x2048x768 .f32 := Host.absf main_arg3
  let main_cst_4 : FVec F S_ .f32 := constant S_ .f32 0x7F800000#32
  let main_v15 : FVec F S32x2048x768 .f32 := broadcastInDim S32x2048x768 ![] bcast_S_S32x2048x768 main_cst_4
  let main_v16 : IVec S32x2048x768 1 := cmpf .olt main_v14 main_v15
  fn_part1 (F := F) main_v13 main_v16
-- ==== Kernel.lean ====
abbrev S32x512x2048 : Shape := ⟨3, ![32, 512, 2048]⟩
abbrev S32x768x2048 : Shape := ⟨3, ![32, 768, 2048]⟩
abbrev S32x2048x768 : Shape := ⟨3, ![32, 2048, 768]⟩
abbrev S1x128x2048 : Shape := ⟨3, ![1, 128, 2048]⟩
abbrev S1x768x2048 : Shape := ⟨3, ![1, 768, 2048]⟩
abbrev S1x2048x768 : Shape := ⟨3, ![1, 2048, 768]⟩
abbrev S768x2048 : Shape := ⟨2, ![768, 2048]⟩
abbrev S2048x768 : Shape := ⟨2, ![2048, 768]⟩
abbrev S128x2048 : Shape := ⟨2, ![128, 2048]⟩
abbrev S128x768 : Shape := ⟨2, ![128, 768]⟩
abbrev S16384x2048 : Shape := ⟨2, ![16384, 2048]⟩

abbrev nBuf : Space → Nat
  | .hbm => 6
  | .vmem => 10
  | .smem => 0
  | _ => 0

abbrev bufTy : (tb : Table) → Fin (tcTables nBuf tb) → BufTy
  | .hbm, ⟨0, _⟩ => ⟨S32x512x2048, .f32⟩
  | .hbm, ⟨1, _⟩ => ⟨S32x768x2048, .f32⟩
  | .hbm, ⟨2, _⟩ => ⟨S32x768x2048, .f32⟩
  | .hbm, ⟨3, _⟩ => ⟨S32x2048x768, .f32⟩
  | .hbm, ⟨4, _⟩ => ⟨S32x512x2048, .f32⟩
  | .hbm, ⟨5, _⟩ => ⟨S16384x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x768x2048, .f32⟩
  | .local _ .vmem, ⟨3, _⟩ => ⟨S1x768x2048, .f32⟩
  | .local _ .vmem, ⟨4, _⟩ => ⟨S1x2048x768, .f32⟩
  | .local _ .vmem, ⟨5, _⟩ => ⟨S1x128x2048, .f32⟩
  | .local _ .vmem, ⟨6, _⟩ => ⟨S1x128x2048, .f32⟩
  | .local _ .vmem, ⟨7, _⟩ => ⟨S768x2048, .bf16⟩
  | .local _ .vmem, ⟨8, _⟩ => ⟨S768x2048, .bf16⟩
  | .local _ .vmem, ⟨9, _⟩ => ⟨S2048x768, .bf16⟩
  | _, _ => ⟨S32x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x768x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x768x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x768x2048_S1x768x2048_0_0_0 : ∀ a, (![0, 0, 0] : Fin 3 → Nat) a + S1x768x2048.size a ≤ S1x768x2048.size a
  h_S1x768x2048 : 0 < S1x768x2048.numel
  shapeCasts_S1x768x2048_S768x2048 : S1x768x2048.ShapeCasts S768x2048
  bitsLt_bf16_f32 : FTy.bits .bf16 < FTy.bits .f32
  inb_S768x2048_S768x2048_0_0 : ∀ a, (![0, 0] : Fin 2 → Nat) a + S768x2048.size a ≤ S768x2048.size a
  h_S768x2048 : 0 < S768x2048.numel
  shapeCasts_S768x2048_S768x2048 : S768x2048.ShapeCasts S768x2048
  packedbf16_S768x2048_S768x2048_0_0 : (Rect.unit (s := S768x2048) ![0, 0] S768x2048.size inb_S768x2048_S768x2048_0_0).PackedRows (EltTy.packing .bf16)
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  packedbf16_S2048x768_S2048x768_0_0 : (Rect.unit (s := S2048x768) ![0, 0] S2048x768.size inb_S2048x768_S2048x768_0_0).PackedRows (EltTy.packing .bf16)
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  shapeCasts_S128x2048_S1x128x2048 : S128x2048.ShapeCasts S1x128x2048
  shapeCasts_S32x512x2048_S16384x2048 : S32x512x2048.ShapeCasts S16384x2048
  dot_S128x2048_S768x2048_S128x768_1_1_0_0_n_n_wf : DotDims.WF S128x2048 S768x2048 S128x768 [1] [1] [0] [0] [] []
  dot_S128x768_S2048x768_S128x2048_1_1_0_0_n_n_wf : DotDims.WF S128x768 S2048x768 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S32x512x2048.size a
  hwx0_0 : ∀ i : grid0.Coords, EltTy.bits .f32 = 32 ∨ (Rect.block (s := S32x512x2048) S1x128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x768x2048.size a ≤ S32x768x2048.size a
  hwx0_1 : ∀ i : grid0.Coords, EltTy.bits .f32 = 32 ∨ (Rect.block (s := S32x768x2048) S1x768x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768x2048.size a ≤ S32x768x2048.size a
  hwx0_2 : ∀ i : grid0.Coords, EltTy.bits .f32 = 32 ∨ (Rect.block (s := S32x768x2048) S1x768x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048x768.size a ≤ S32x2048x768.size a
  hwx0_3 : ∀ i : grid0.Coords, EltTy.bits .f32 = 32 ∨ (Rect.block (s := S32x2048x768) S1x2048x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x2048.size a ≤ S32x512x2048.size a
  hwx0_4 : ∀ i : grid0.Coords, EltTy.bits .f32 = 32 ∨ (Rect.block (s := S32x512x2048) S1x128x2048.size (cc0_transform_4 i) (hinb0_4 i)).WholeWords (EltTy.packing .f32)

variable [Facts₀]

def dot_S128x2048_S768x2048_S128x768_1_1_0_0_n_n : DotDims S128x2048 S768x2048 S128x768 where
  lhsContracting := [1]
  rhsContracting := [1]
  lhsNonContracting := [0]
  rhsNonContracting := [0]
  lhsBatch := []
  rhsBatch := []
  wf := dot_S128x2048_S768x2048_S128x768_1_1_0_0_n_n_wf
def dot_S128x768_S2048x768_S128x2048_1_1_0_0_n_n : DotDims S128x768 S2048x768 S128x2048 where
  lhsContracting := [1]
  rhsContracting := [1]
  lhsNonContracting := [0]
  rhsNonContracting := [0]
  lhsBatch := []
  rhsBatch := []
  wf := dot_S128x768_S2048x768_S128x2048_1_1_0_0_n_n_wf

abbrev win0_0 : Pipeline.Window sig grid0 :=
  Pipeline.Window.ofSpec (Memref.whole main_arg0) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x768x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x768x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2048x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x512x2048 : Shape := ⟨3, ![32, 512, 2048]⟩
abbrev S32x768x2048 : Shape := ⟨3, ![32, 768, 2048]⟩
abbrev S32x2048x768 : Shape := ⟨3, ![32, 2048, 768]⟩
abbrev S32x512x768 : Shape := ⟨3, ![32, 512, 768]⟩
abbrev S_ : Shape := ⟨0, ![]⟩
abbrev S16384x2048 : Shape := ⟨2, ![16384, 2048]⟩

abbrev nBuf : Space → Nat
  | .hbm => 18
  | .vmem => 0
  | .smem => 0
  | _ => 0

abbrev bufTy : (tb : Table) → Fin (tcTables nBuf tb) → BufTy
  | .hbm, ⟨0, _⟩ => ⟨S32x512x2048, .f32⟩
  | .hbm, ⟨1, _⟩ => ⟨S32x768x2048, .f32⟩
  | .hbm, ⟨2, _⟩ => ⟨S32x768x2048, .f32⟩
  | .hbm, ⟨3, _⟩ => ⟨S32x2048x768, .f32⟩
  | .hbm, ⟨4, _⟩ => ⟨S32x512x768, .f32⟩
  | .hbm, ⟨5, _⟩ => ⟨S32x512x768, .f32⟩
  | .hbm, ⟨6, _⟩ => ⟨S32x512x768, .f32⟩
  | .hbm, ⟨7, _⟩ => ⟨S32x512x768, .f32⟩
  | .hbm, ⟨8, _⟩ => ⟨S_, .f32⟩
  | .hbm, ⟨9, _⟩ => ⟨S32x512x768, .f32⟩
  | .hbm, ⟨10, _⟩ => ⟨S32x512x768, .f32⟩
  | .hbm, ⟨11, _⟩ => ⟨S_, .f32⟩
  | .hbm, ⟨12, _⟩ => ⟨S32x512x768, .f32⟩
  | .hbm, ⟨13, _⟩ => ⟨S32x512x768, .f32⟩
  | .hbm, ⟨14, _⟩ => ⟨S32x512x768, .f32⟩
  | .hbm, ⟨15, _⟩ => ⟨S32x512x768, .f32⟩
  | .hbm, ⟨16, _⟩ => ⟨S32x512x2048, .f32⟩
  | .hbm, ⟨17, _⟩ => ⟨S16384x2048, .f32⟩
  | _, _ => ⟨S32x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]

class Facts₀ : Prop where
  bcast_S_S32x512x768 : S_.BroadcastsInDim S32x512x768 (![] : Fin 0 → Fin S32x512x768.rank)
  shapeCasts_S32x512x2048_S16384x2048 : S32x512x2048.ShapeCasts S16384x2048
  dot_S32x512x2048_S32x768x2048_S32x512x768_2_2_1_1_0_0_wf : DotDims.WF S32x512x2048 S32x768x2048 S32x512x768 [2] [2] [1] [1] [0] [0]
  dot_S32x512x768_S32x2048x768_S32x512x2048_2_2_1_1_0_0_wf : DotDims.WF S32x512x768 S32x2048x768 S32x512x2048 [2] [2] [1] [1] [0] [0]

variable [Facts₀]

def dot_S32x512x2048_S32x768x2048_S32x512x768_2_2_1_1_0_0 : DotDims S32x512x2048 S32x768x2048 S32x512x768 where
  lhsContracting := [2]
  rhsContracting := [2]
  lhsNonContracting := [1]
  rhsNonContracting := [1]
  lhsBatch := [0]
  rhsBatch := [0]
  wf := dot_S32x512x2048_S32x768x2048_S32x512x768_2_2_1_1_0_0_wf
def dot_S32x512x768_S32x2048x768_S32x512x2048_2_2_1_1_0_0 : DotDims S32x512x768 S32x2048x768 S32x512x2048 where
  lhsContracting := [2]
  rhsContracting := [2]
  lhsNonContracting := [1]
  rhsNonContracting := [1]
  lhsBatch := [0]
  rhsBatch := [0]
  wf := dot_S32x512x768_S32x2048x768_S32x512x2048_2_2_1_1_0_0_wf

class Facts : Prop extends Facts₀ where

variable [Facts]
-- ==== Proof.Spec.lean ====
/-
  The function both programs compute, index by index, on the extended reals: a gated two-layer
  map applied per expert.  With x the routed input [32, 512, 2048], g and u the gate and up
  weights [32, 768, 2048] and d the down weights [32, 2048, 768], for expert e, token row r and
  output column h,

    out (e, r, h) = Σ_i  gated (e, r, i) · d (e, h, i),
    gated (e, r, i) = (a · logistic a) · b,   a = Σ_k x (e, r, k) · g (e, i, k),
                                               b = Σ_k x (e, r, k) · u (e, i, k).

  Both sums run over the last axis of both factors, in the order of that axis.  Only commutative
  monoid structure of the extended reals is used, so nothing here asks the inputs to be finite.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The routed input's and the result's shape. -/
abbrev SX : Shape := ⟨3, ![32, 512, 2048]⟩
/-- The gate and up weights' shape. -/
abbrev SW : Shape := ⟨3, ![32, 768, 2048]⟩
/-- The down weights' shape. -/
abbrev SD : Shape := ⟨3, ![32, 2048, 768]⟩

/-- One projection entry: row `r` of expert `e`'s input against row `i` of that expert's weight. -/
def proj (x : SX.Idx → EReal) (w : SW.Idx → EReal) (e : Fin 32) (r : Fin 512) (i : Fin 768) : EReal :=
  ∑ k : Fin 2048, x (ix3 e r k) * w (ix3 e i k)

/-- The gated entry: `(a · logistic a) · b` of the gate projection `a` and the up projection `b`. -/
def gated (x : SX.Idx → EReal) (g u : SW.Idx → EReal) (e : Fin 32) (r : Fin 512) (i : Fin 768) : EReal :=
  proj x g e r i * Ideal.logistic (proj x g e r i) * proj x u e r i

/-- The result, before the final flattening of (expert, row) into one axis. -/
def out (x : SX.Idx → EReal) (g u : SW.Idx → EReal) (d : SD.Idx → EReal) : SX.Idx → EReal := fun j =>
  ∑ i : Fin 768, gated x g u (j 0) (j 1) i * d (ix3 (j 0) (j 2) i)

/-- The float word of 1.0 denotes the real number 1. -/
theorem ofBits_one : Ideal.ofBits .f32 0x3F800000#32 = 1 := by
  simp [Ideal.ofBits, Ideal.ieee, -EReal.coe_mul]
  norm_num

/-- the reference's expansion of the logistic function — 1 / (1 + exp (-a)) with the literal 1.0 — is the
    logistic function. -/
theorem logistic_expanded (a : EReal) :
    Ideal.div (Ideal.ofBits .f32 0x3F800000#32) (Ideal.ofBits .f32 0x3F800000#32 + Ideal.exp (-a)) = Ideal.logistic a := by
  rw [ofBits_one]; rfl

end Cert.Spec

end
-- ==== Proof.RefIsSpec.lean ====
/-
  The reference, read one operation at a time, is the specification.  Each of its three batched
  contractions sums, for a fixed expert, over the last axis of both operands; its gate is the
  product of the gate projection with the reference's expansion 1 / (1 + exp (-a)) of the logistic
  function; the final reshape is kept as it is (the kernel ends with the same one).
-/
import proofs.«101355_j75892072120692_2_alg».proof.Proof.Gen.ReferenceIdeal.Read
import proofs.«101355_j75892072120692_2_alg».proof.Proof.Spec

noncomputable section

namespace Cert.RefValue

open Cert.ReferenceIdeal Cert.ReferenceIdeal.Read Idealize.ShloMosaic Idealize.ShloMosaic.ValueIdx Cert.Spec

/-- The operand indices of the gate contraction, by coordinates. -/
theorem lidx_v0 (i : S32x512x768.Idx) (k : Fin 2048) : lidx_main_v0 i k = ix3 (i 0) (i 1) k :=
  funext fun a => by match a with | ⟨0, _⟩ => rfl | ⟨1, _⟩ => rfl | ⟨2, _⟩ => rfl
theorem ridx_v0 (i : S32x512x768.Idx) (k : Fin 2048) : ridx_main_v0 i k = ix3 (i 0) (i 2) k :=
  funext fun a => by match a with | ⟨0, _⟩ => rfl | ⟨1, _⟩ => rfl | ⟨2, _⟩ => rfl
/-- The operand indices of the up contraction, by coordinates. -/
theorem lidx_v1 (i : S32x512x768.Idx) (k : Fin 2048) : lidx_main_v1 i k = ix3 (i 0) (i 1) k :=
  funext fun a => by match a with | ⟨0, _⟩ => rfl | ⟨1, _⟩ => rfl | ⟨2, _⟩ => rfl
theorem ridx_v1 (i : S32x512x768.Idx) (k : Fin 2048) : ridx_main_v1 i k = ix3 (i 0) (i 2) k :=
  funext fun a => by match a with | ⟨0, _⟩ => rfl | ⟨1, _⟩ => rfl | ⟨2, _⟩ => rfl
/-- The right operand's index of the down contraction, by coordinates. -/
theorem ridx_v4 (i : S32x512x2048.Idx) (k : Fin 768) : ridx_main_v4 i k = ix3 (i 0) (i 2) k :=
  funext fun a => by match a with | ⟨0, _⟩ => rfl | ⟨1, _⟩ => rfl | ⟨2, _⟩ => rfl

/-- The gate contraction is the gate projection. -/
theorem gate_eq (x : SX.Idx → EReal) (g : SW.Idx → EReal) (i : S32x512x768.Idx) :
    val_main_v0 (F := Ideal) x g i = proj x g (i 0) (i 1) (i 2) := by
  rw [val_main_v0_apply]
  unfold proj
  exact Finset.sum_congr rfl fun k _ => by rw [lidx_v0, ridx_v0]; rfl

/-- The up contraction is the up projection. -/
theorem up_eq (x : SX.Idx → EReal) (u : SW.Idx → EReal) (i : S32x512x768.Idx) :
    val_main_v1 (F := Ideal) x u i = proj x u (i 0) (i 1) (i 2) := by
  rw [val_main_v1_apply]
  unfold proj
  exact Finset.sum_congr rfl fun k _ => by rw [lidx_v1, ridx_v1]; rfl

/-- The gated product the reference forms is the specification's gated entry. -/
theorem gated_eq (x : SX.Idx → EReal) (g u : SW.Idx → EReal) (i : S32x512x768.Idx) :
    val_main_v3 (F := Ideal) x g u i = gated x g u (i 0) (i 1) (i 2) := by
  rw [val_main_v3_apply, val_main_v2_apply, val_main_call0_v5_apply, val_main_call0_v4_apply,
    val_main_call0_cst_0_apply, val_main_call0_v3_apply, val_main_call0_v2_apply, val_main_call0_cst_apply,
    val_main_call0_v1_apply, val_main_call0_v0_apply, up_eq, gate_eq]
  unfold gated
  rw [← logistic_expanded]
  rfl

/-- The reference's result before its final reshape is the specification. -/
theorem out_eq (x : SX.Idx → EReal) (g u : SW.Idx → EReal) (d : SD.Idx → EReal) :
    val_main_v4 (F := Ideal) x g u d = out x g u d := by
  funext i
  rw [val_main_v4_apply]
  unfold out
  exact Finset.sum_congr rfl fun k _ => by rw [gated_eq, ridx_v4]; rfl

end Cert.RefValue

end
-- ==== Proof.Pieces.lean ====
/-
  What one run of the body leaves behind, as values.  At the first row tile of an expert the
  body first stores the three weight blocks (format-converted) into the three carried buffers
  and then computes the output tile from the input tile and the buffers just written; at the
  other row tiles it stores nothing into the buffers and computes the output tile from the
  input tile and what the buffers held on entry.
-/
import proofs.«101355_j75892072120692_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At an expert's first row tile the first carried buffer ends at the converted gate block. -/
theorem gateBuf_first (c : Dev nD) (i : grid0.Coords) (arg2 : Memref sig .tc .vmem S1x128x2048 .f32) (harg2 : arg2.IsWhole) (arg3 : Memref sig .tc .vmem S1x768x2048 .f32) (harg3 : arg3.IsWhole) (arg4 : Memref sig .tc .vmem S1x768x2048 .f32) (harg4 : arg4.IsWhole) (arg5 : Memref sig .tc .vmem S1x2048x768 .f32) (harg5 : arg5.IsWhole) (arg6 : Memref sig .tc .vmem S1x128x2048 .f32) (harg6 : arg6.IsWhole) (arg7 : Memref sig .tc .vmem S768x2048 .bf16) (harg7 : arg7.IsWhole) (arg8 : Memref sig .tc .vmem S768x2048 .bf16) (harg8 : arg8.IsWhole) (arg9 : Memref sig .tc .vmem S2048x768 .bf16) (harg9 : arg9.IsWhole) (hc0 : cond0_0 i) (x0 : Vec F S1x128x2048 .f32) (x1 : Vec F S1x768x2048 .f32) (x2 : Vec F S1x768x2048 .f32) (x3 : Vec F S1x2048x768 .f32) :
    sout0_A_0 c i arg2 harg2 arg3 harg3 arg4 harg4 arg5 harg5 arg6 harg6 arg7 harg7 arg8 harg8 arg9 harg9 hc0 x0 x1 x2 x3 = k0_pay1 x1 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz2]
  simp only [View.readAt_eq_ld, harg3.read_unread, harg4.read_unread, harg5.read_unread, View.ld_unit_zero (S := S1x128x2048) hz3, View.ld_unit_zero (S := S1x768x2048) hz3, View.ld_unit_zero (S := S1x2048x768) hz3]

/-- At an expert's first row tile the second carried buffer ends at the converted up block. -/
theorem upBuf_first (c : Dev nD) (i : grid0.Coords) (arg2 : Memref sig .tc .vmem S1x128x2048 .f32) (harg2 : arg2.IsWhole) (arg3 : Memref sig .tc .vmem S1x768x2048 .f32) (harg3 : arg3.IsWhole) (arg4 : Memref sig .tc .vmem S1x768x2048 .f32) (harg4 : arg4.IsWhole) (arg5 : Memref sig .tc .vmem S1x2048x768 .f32) (harg5 : arg5.IsWhole) (arg6 : Memref sig .tc .vmem S1x128x2048 .f32) (harg6 : arg6.IsWhole) (arg7 : Memref sig .tc .vmem S768x2048 .bf16) (harg7 : arg7.IsWhole) (arg8 : Memref sig .tc .vmem S768x2048 .bf16) (harg8 : arg8.IsWhole) (arg9 : Memref sig .tc .vmem S2048x768 .bf16) (harg9 : arg9.IsWhole) (hc0 : cond0_0 i) (x0 : Vec F S1x128x2048 .f32) (x1 : Vec F S1x768x2048 .f32) (x2 : Vec F S1x768x2048 .f32) (x3 : Vec F S1x2048x768 .f32) :
    sout0_A_1 c i arg2 harg2 arg3 harg3 arg4 harg4 arg5 harg5 arg6 harg6 arg7 harg7 arg8 harg8 arg9 harg9 hc0 x0 x1 x2 x3 = k0_pay2 x2 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz2]
  simp only [View.readAt_eq_ld, harg3.read_unread, harg4.read_unread, harg5.read_unread, View.ld_unit_zero (S := S1x128x2048) hz3, View.ld_unit_zero (S := S1x768x2048) hz3, View.ld_unit_zero (S := S1x2048x768) hz3]

/-- At an expert's first row tile the third carried buffer ends at the converted down block. -/
theorem downBuf_first (c : Dev nD) (i : grid0.Coords) (arg2 : Memref sig .tc .vmem S1x128x2048 .f32) (harg2 : arg2.IsWhole) (arg3 : Memref sig .tc .vmem S1x768x2048 .f32) (harg3 : arg3.IsWhole) (arg4 : Memref sig .tc .vmem S1x768x2048 .f32) (harg4 : arg4.IsWhole) (arg5 : Memref sig .tc .vmem S1x2048x768 .f32) (harg5 : arg5.IsWhole) (arg6 : Memref sig .tc .vmem S1x128x2048 .f32) (harg6 : arg6.IsWhole) (arg7 : Memref sig .tc .vmem S768x2048 .bf16) (harg7 : arg7.IsWhole) (arg8 : Memref sig .tc .vmem S768x2048 .bf16) (harg8 : arg8.IsWhole) (arg9 : Memref sig .tc .vmem S2048x768 .bf16) (harg9 : arg9.IsWhole) (hc0 : cond0_0 i) (x0 : Vec F S1x128x2048 .f32) (x1 : Vec F S1x768x2048 .f32) (x2 : Vec F S1x768x2048 .f32) (x3 : Vec F S1x2048x768 .f32) :
    sout0_A_2 c i arg2 harg2 arg3 harg3 arg4 harg4 arg5 harg5 arg6 harg6 arg7 harg7 arg8 harg8 arg9 harg9 hc0 x0 x1 x2 x3 = k0_pay3 x3 := by
  unfold sout0_A_2
  rw [View.read_writes_eq_canon _ _ _ (scover0_A_2 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz2]
  simp only [View.readAt_eq_ld, harg3.read_unread, harg4.read_unread, harg5.read_unread, View.ld_unit_zero (S := S1x128x2048) hz3, View.ld_unit_zero (S := S1x768x2048) hz3, View.ld_unit_zero (S := S1x2048x768) hz3]

/-- At an expert's first row tile the output tile is the body's arithmetic of the input tile and the three
    blocks just stored: each later load of a carried buffer reads back what the one covering store left. -/
theorem tile_first (c : Dev nD) (i : grid0.Coords) (arg2 : Memref sig .tc .vmem S1x128x2048 .f32) (harg2 : arg2.IsWhole) (arg3 : Memref sig .tc .vmem S1x768x2048 .f32) (harg3 : arg3.IsWhole) (arg4 : Memref sig .tc .vmem S1x768x2048 .f32) (harg4 : arg4.IsWhole) (arg5 : Memref sig .tc .vmem S1x2048x768 .f32) (harg5 : arg5.IsWhole) (arg6 : Memref sig .tc .vmem S1x128x2048 .f32) (harg6 : arg6.IsWhole) (arg7 : Memref sig .tc .vmem S768x2048 .bf16) (harg7 : arg7.IsWhole) (arg8 : Memref sig .tc .vmem S768x2048 .bf16) (harg8 : arg8.IsWhole) (arg9 : Memref sig .tc .vmem S2048x768 .bf16) (harg9 : arg9.IsWhole) (hc0 : cond0_0 i) (x0 : Vec F S1x128x2048 .f32) (x1 : Vec F S1x768x2048 .f32) (x2 : Vec F S1x768x2048 .f32) (x3 : Vec F S1x2048x768 .f32) :
    out0_A_4 c i arg2 harg2 arg3 harg3 arg4 harg4 arg5 harg5 arg6 harg6 arg7 harg7 arg8 harg8 arg9 harg9 hc0 x0 x1 x2 x3 = k0_pay4 x0 (k0_pay1 x1) (k0_pay2 x2) (k0_pay3 x3) := by
  unfold out0_A_4
  rw [View.read_writes_eq_canon _ _ _ (cover0_A_4 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz3]
  simp only [View.readAt_eq_ld, harg2.read_unread, harg3.read_unread, harg4.read_unread, harg5.read_unread, View.ld_unit_zero (S := S1x128x2048) hz3, View.ld_unit_zero (S := S1x768x2048) hz3, View.ld_unit_zero (S := S1x2048x768) hz3,
    View.readCov_unit_zero (S := S768x2048) _ hz2, View.readCov_unit_zero (S := S2048x768) _ hz2]

/-- At the other row tiles the output tile is the same arithmetic of the input tile and what the carried
    buffers held on entry. -/
theorem tile_later (c : Dev nD) (i : grid0.Coords) (arg2 : Memref sig .tc .vmem S1x128x2048 .f32) (harg2 : arg2.IsWhole) (arg3 : Memref sig .tc .vmem S1x768x2048 .f32) (harg3 : arg3.IsWhole) (arg4 : Memref sig .tc .vmem S1x768x2048 .f32) (harg4 : arg4.IsWhole) (arg5 : Memref sig .tc .vmem S1x2048x768 .f32) (harg5 : arg5.IsWhole) (arg6 : Memref sig .tc .vmem S1x128x2048 .f32) (harg6 : arg6.IsWhole) (arg7 : Memref sig .tc .vmem S768x2048 .bf16) (harg7 : arg7.IsWhole) (arg8 : Memref sig .tc .vmem S768x2048 .bf16) (harg8 : arg8.IsWhole) (arg9 : Memref sig .tc .vmem S2048x768 .bf16) (harg9 : arg9.IsWhole) (hc0 : ¬cond0_0 i) (x0 : Vec F S1x128x2048 .f32) (x1 : Vec F S1x768x2048 .f32) (x2 : Vec F S1x768x2048 .f32) (x3 : Vec F S1x2048x768 .f32) (xs0 : Vec F S768x2048 .bf16) (xs1 : Vec F S768x2048 .bf16) (xs2 : Vec F S2048x768 .bf16) :
    out0_B_4 c i arg2 harg2 arg3 harg3 arg4 harg4 arg5 harg5 arg6 harg6 arg7 harg7 arg8 harg8 arg9 harg9 hc0 x0 x1 x2 x3 xs0 xs1 xs2 = k0_pay4 x0 xs0 xs1 xs2 := by
  unfold out0_B_4
  rw [View.read_writes_eq_canon _ _ _ (cover0_B_4 c i arg2 harg2 arg3 harg3 arg4 harg4 arg5 harg5 arg6 harg6 arg7 harg7 arg8 harg8 arg9 harg9 hc0 x0 x1 x2 x3 xs0 xs1 xs2)]
  unfold kernelRun0_B
  dsimp only
  rw [View.canon_unit_zero hz3]
  simp only [View.readAt_eq_ld, harg2.read_unread, harg7.read_unread, harg8.read_unread, harg9.read_unread, View.ld_unit_zero (S := S1x128x2048) hz3, View.ld_unit_zero (S := S1x768x2048) hz3, View.ld_unit_zero (S := S1x2048x768) hz3, View.ld_unit_zero (S := S768x2048) hz2, View.ld_unit_zero (S := S2048x768) hz2]

end Cert.KernelIdeal.Pieces

end
-- ==== Proof.Carried.lean ====
/-
  What the three carried buffers hold after each grid point, and so what each output tile is.
  The grid runs expert-major: point t is row tile t mod 4 of expert t / 4.  The buffers are
  rewritten exactly at the first row tile of an expert, with that expert's converted weight
  blocks, and left alone at the other three; so after every point they hold the converted
  blocks of that point's own expert, and every output tile is the body's arithmetic of its
  input tile and its own expert's blocks.
-/
import proofs.«101355_j75892072120692_2_alg».proof.Proof.Pieces
import Idealize.ShloMosaic.Lib.ValueIdx

set_option maxRecDepth 16384

noncomputable section

namespace Cert.KernelIdeal.Carried

open Cert.KernelIdeal Cert.KernelIdeal.Gen Cert.KernelIdeal.Pieces
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The printed index maps over the grid: the input and output tiles are block (t / 4, t mod 4, 0), the weight
    blocks block (t / 4, 0, 0). -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0
    ∧ win0_4.index t (0 : Fin 3) = t.val / 4 ∧ win0_4.index t (1 : Fin 3) = t.val % 4 ∧ win0_4.index t (2 : Fin 3) = 0 :=
  (by decide +kernel : ∀ t : Fin grid0.N, _)

/-- The expert a grid point works on. -/
def expert (t : Fin cfg0.N) : Fin 32 :=
  ⟨t.val / 4, by have h : t.val < 128 := lt_of_lt_of_eq t.isLt (show cfg0.N = 128 from N_0); omega⟩

/-- Expert `e`'s gate weights as a [1, 768, 2048] block of the gate array. -/
def gateBlk (c : Dev nD) (e : Fin 32) : Vec F S1x768x2048 .f32 := fun y => V m c main_arg1 (ix3 e (y 1) (y 2))

/-- The window's block at a point is that block of the point's expert. -/
theorem gateBlk_iblk (c : Dev nD) (t : Fin cfg0.N) : (iblk m c 1 t : Vec F S1x768x2048 .f32) = gateBlk m c (expert t) := by
  obtain ⟨-, -, -, g0, g1, g2, u0, u1, u2, d0, d1, d2, -⟩ := idx_facts t
  funext j
  unfold iblk gateBlk
  rw [View.read_apply]
  show V m c main_arg1 _ = V m c main_arg1 _
  congr 1
  funext a
  apply Fin.ext
  have j0 : (j 0).val < 1 := (j 0).isLt
  match a with
  | ⟨0, _⟩ => show win0_1.index t (0 : Fin 3) * 1 + 1 * (j 0).val = t.val / 4; omega
  | ⟨1, _⟩ => show win0_1.index t (1 : Fin 3) * 768 + 1 * (j 1).val = (j 1).val; omega
  | ⟨2, _⟩ => show win0_1.index t (2 : Fin 3) * 2048 + 1 * (j 2).val = (j 2).val; omega

/-- Expert `e`'s up weights as a [1, 768, 2048] block of the up array. -/
def upBlk (c : Dev nD) (e : Fin 32) : Vec F S1x768x2048 .f32 := fun y => V m c main_arg2 (ix3 e (y 1) (y 2))

/-- The window's block at a point is that block of the point's expert. -/
theorem upBlk_iblk (c : Dev nD) (t : Fin cfg0.N) : (iblk m c 2 t : Vec F S1x768x2048 .f32) = upBlk m c (expert t) := by
  obtain ⟨-, -, -, g0, g1, g2, u0, u1, u2, d0, d1, d2, -⟩ := idx_facts t
  funext j
  unfold iblk upBlk
  rw [View.read_apply]
  show V m c main_arg2 _ = V m c main_arg2 _
  congr 1
  funext a
  apply Fin.ext
  have j0 : (j 0).val < 1 := (j 0).isLt
  match a with
  | ⟨0, _⟩ => show win0_2.index t (0 : Fin 3) * 1 + 1 * (j 0).val = t.val / 4; omega
  | ⟨1, _⟩ => show win0_2.index t (1 : Fin 3) * 768 + 1 * (j 1).val = (j 1).val; omega
  | ⟨2, _⟩ => show win0_2.index t (2 : Fin 3) * 2048 + 1 * (j 2).val = (j 2).val; omega

/-- Expert `e`'s down weights as a [1, 2048, 768] block of the down array. -/
def downBlk (c : Dev nD) (e : Fin 32) : Vec F S1x2048x768 .f32 := fun y => V m c main_arg3 (ix3 e (y 1) (y 2))

/-- The window's block at a point is that block of the point's expert. -/
theorem downBlk_iblk (c : Dev nD) (t : Fin cfg0.N) : (iblk m c 3 t : Vec F S1x2048x768 .f32) = downBlk m c (expert t) := by
  obtain ⟨-, -, -, g0, g1, g2, u0, u1, u2, d0, d1, d2, -⟩ := idx_facts t
  funext j
  unfold iblk downBlk
  rw [View.read_apply]
  show V m c main_arg3 _ = V m c main_arg3 _
  congr 1
  funext a
  apply Fin.ext
  have j0 : (j 0).val < 1 := (j 0).isLt
  match a with
  | ⟨0, _⟩ => show win0_3.index t (0 : Fin 3) * 1 + 1 * (j 0).val = t.val / 4; omega
  | ⟨1, _⟩ => show win0_3.index t (1 : Fin 3) * 2048 + 1 * (j 1).val = (j 1).val; omega
  | ⟨2, _⟩ => show win0_3.index t (2 : Fin 3) * 768 + 1 * (j 2).val = (j 2).val; omega

/-- The three carried buffers when they hold expert `e`'s converted blocks. -/
def held (c : Dev nD) (e : Fin 32) : Vec F S768x2048 .bf16 × Vec F S768x2048 .bf16 × Vec F S2048x768 .bf16 :=
  (k0_pay1 (gateBlk m c e), k0_pay2 (upBlk m c e), k0_pay3 (downBlk m c e))

/-- At the first row tile of an expert the buffers end at that expert's converted blocks. -/
theorem carried_first (c : Dev nD) (t : Fin cfg0.N) (h0 : t.val % 4 = 0) :
    (outsAt0 m c t.val t.isLt).2 = held m c (expert t) := by
  rw [outsAt0_A m c t h0]
  dsimp only
  exact congrArg₂ Prod.mk
    ((gateBuf_first (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t)).trans (congrArg k0_pay1 (gateBlk_iblk m c t)))
    (congrArg₂ Prod.mk
      ((upBuf_first (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t)).trans (congrArg k0_pay2 (upBlk_iblk m c t)))
      ((downBuf_first (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t)).trans (congrArg k0_pay3 (downBlk_iblk m c t))))

/-- After EVERY point the buffers hold the converted blocks of that point's expert: rewritten at an expert's
    first row tile, kept at the other three, whose expert is the previous point's. -/
theorem carried (c : Dev nD) : ∀ (n : ℕ) (h : n < cfg0.N), (outsAt0 m c n h).2 = held m c (expert ⟨n, h⟩)
  | 0, h => carried_first m c ⟨0, h⟩ rfl
  | n + 1, h => by
    by_cases h0 : (n + 1) % 4 = 0
    · exact carried_first m c ⟨n + 1, h⟩ h0
    · have ih := carried c n (Nat.lt_of_succ_lt h)
      have he : expert ⟨n + 1, h⟩ = expert ⟨n, Nat.lt_of_succ_lt h⟩ := Fin.ext (by show (n + 1) / 4 = n / 4; omega)
      rw [outsAt0_B m c ⟨n + 1, h⟩ h0, he, ← ih]
      rfl

/-- Every output tile is the body's arithmetic of its input tile and its own expert's converted blocks. -/
theorem tile_at (c : Dev nD) (t : Fin cfg0.N) :
    (outsAt0 m c t.val t.isLt).1
      = k0_pay4 (iblk m c 0 t) (k0_pay1 (gateBlk m c (expert t))) (k0_pay2 (upBlk m c (expert t))) (k0_pay3 (downBlk m c (expert t))) := by
  by_cases h0 : t.val % 4 = 0
  · rw [outsAt0_A m c t h0]
    dsimp only
    refine (tile_first (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (iblk m c 0 t) (iblk m c 1 t) (iblk m c 2 t) (iblk m c 3 t)).trans ?_
    rw [gateBlk_iblk m c t, upBlk_iblk m c t, downBlk_iblk m c t]
  · obtain ⟨tv, ht⟩ := t
    cases tv with
    | zero => exact absurd rfl h0
    | succ n =>
      have h0' : ¬(n + 1) % 4 = 0 := h0
      have ih := carried m c n (Nat.lt_of_succ_lt ht)
      have he : expert ⟨n + 1, ht⟩ = expert ⟨n, Nat.lt_of_succ_lt ht⟩ := Fin.ext (by show (n + 1) / 4 = n / 4; omega)
      rw [outsAt0_B m c ⟨n + 1, ht⟩ h0]
      dsimp only
      refine (tile_later (F := F) c (grid0.coords ⟨n + 1, ht⟩) (ms0_0 ⟨n + 1, ht⟩) (hs0_0 ⟨n + 1, ht⟩) (ms0_1 ⟨n + 1, ht⟩) (hs0_1 ⟨n + 1, ht⟩) (ms0_2 ⟨n + 1, ht⟩) (hs0_2 ⟨n + 1, ht⟩) (ms0_3 ⟨n + 1, ht⟩) (hs0_3 ⟨n + 1, ht⟩) (ms0_4 ⟨n + 1, ht⟩) (hs0_4 ⟨n + 1, ht⟩) scM0_0 (Memref.isWhole_whole _) scM0_1 (Memref.isWhole_whole _) scM0_2 (Memref.isWhole_whole _)
        (fun h => h0 ((hcond0_0 ⟨n + 1, ht⟩).mp h)) (iblk m c 0 ⟨n + 1, ht⟩) (iblk m c 1 ⟨n + 1, ht⟩) (iblk m c 2 ⟨n + 1, ht⟩) (iblk m c 3 ⟨n + 1, ht⟩)
        (outsAt0 m c n (Nat.lt_of_succ_lt ht)).2.1 (outsAt0 m c n (Nat.lt_of_succ_lt ht)).2.2.1 (outsAt0 m c n (Nat.lt_of_succ_lt ht)).2.2.2).trans ?_
      rw [he, ih]
      rfl

end Cert.KernelIdeal.Carried

end
-- ==== Proof.TileValue.lean ====
/-
  The body's arithmetic for one output tile, read at an index on the extended reals.  With x the
  input tile [1, 128, 2048] and G, U [768, 2048], D [2048, 768] the three weight blocks, the entry
  at row r and column h is

    Σ_i  (a_i · logistic a_i) · b_i · D (h, i),   a_i = Σ_k x (0, r, k) · G (i, k),
                                                  b_i = Σ_k x (0, r, k) · U (i, k).

  Each matrix product contracts the last axis of both operands into a zero accumulator, so it
  is the plain sum; the format conversions are the identity on the extended reals.
-/
import proofs.«101355_j75892072120692_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tile

open Cert.KernelIdeal Cert.KernelIdeal.Gen
open Idealize.ShloMosaic Idealize.ShloMosaic.ValueIdx

theorem projMM_lhs0 (j : S128x768.Idx) (q : dot_S128x2048_S768x2048_S128x768_1_1_0_0_n_n.contr.Idx) : (dot_S128x2048_S768x2048_S128x768_1_1_0_0_n_n.lhsIdx j q 0).val = (j 0).val := by
  unfold DotDims.lhsIdx
  rw [dif_neg (show ¬(0 : Fin S128x2048.rank) ∈ dot_S128x2048_S768x2048_S128x768_1_1_0_0_n_n.lhsBatch by decide), dif_pos (show (0 : Fin S128x2048.rank) ∈ dot_S128x2048_S768x2048_S128x768_1_1_0_0_n_n.lhsNonContracting by decide)]
  rfl
theorem projMM_lhs1 (j : S128x768.Idx) (q : dot_S128x2048_S768x2048_S128x768_1_1_0_0_n_n.contr.Idx) : (dot_S128x2048_S768x2048_S128x768_1_1_0_0_n_n.lhsIdx j q 1).val = (q ⟨0, by decide⟩).val :=
  dot_S128x2048_S768x2048_S128x768_1_1_0_0_n_n.lhsIdx_val_of_single rfl j q
theorem projMM_rhs0 (j : S128x768.Idx) (q : dot_S128x2048_S768x2048_S128x768_1_1_0_0_n_n.contr.Idx) : (dot_S128x2048_S768x2048_S128x768_1_1_0_0_n_n.rhsIdx j q 0).val = (j 1).val := by
  unfold DotDims.rhsIdx
  rw [dif_neg (show ¬(0 : Fin S768x2048.rank) ∈ dot_S128x2048_S768x2048_S128x768_1_1_0_0_n_n.rhsBatch by decide), dif_pos (show (0 : Fin S768x2048.rank) ∈ dot_S128x2048_S768x2048_S128x768_1_1_0_0_n_n.rhsNonContracting by decide)]
  rfl
theorem projMM_rhs1 (j : S128x768.Idx) (q : dot_S128x2048_S768x2048_S128x768_1_1_0_0_n_n.contr.Idx) : (dot_S128x2048_S768x2048_S128x768_1_1_0_0_n_n.rhsIdx j q 1).val = (q ⟨0, by decide⟩).val :=
  dot_S128x2048_S768x2048_S128x768_1_1_0_0_n_n.rhsIdx_val_of_single rfl j q

/-- A projection product: row `a` of the left block against row `b` of the right block, summed over the shared last axis. -/
theorem projMM_apply (l : FVec Ideal S128x2048 .bf16) (r : FVec Ideal S768x2048 .bf16) (a : Fin 128) (b : Fin 768) :
    matmul dot_S128x2048_S768x2048_S128x768_1_1_0_0_n_n none l r (constant (F := Ideal) S128x768 .f32 0x00000000#32) (ix2 a b) = ∑ k : Fin 2048, l (ix2 a k) * r (ix2 b k) := by
  simp only [matmul]
  rw [Ideal.matmul_constant_zero_apply, ← Equiv.sum_comp (contrEquiv1 dot_S128x2048_S768x2048_S128x768_1_1_0_0_n_n 2048 rfl rfl).symm]
  refine Finset.sum_congr rfl fun k _ => ?_
  have hk := contrEquiv1_symm_val dot_S128x2048_S768x2048_S128x768_1_1_0_0_n_n 2048 rfl rfl k
  have el : dot_S128x2048_S768x2048_S128x768_1_1_0_0_n_n.lhsIdx (ix2 a b) ((contrEquiv1 dot_S128x2048_S768x2048_S128x768_1_1_0_0_n_n 2048 rfl rfl).symm k) = ix2 a k := funext fun d => Fin.ext (by
    match d with
    | ⟨0, _⟩ => exact projMM_lhs0 _ _
    | ⟨1, _⟩ => exact (projMM_lhs1 _ _).trans hk)
  have er : dot_S128x2048_S768x2048_S128x768_1_1_0_0_n_n.rhsIdx (ix2 a b) ((contrEquiv1 dot_S128x2048_S768x2048_S128x768_1_1_0_0_n_n 2048 rfl rfl).symm k) = ix2 b k := funext fun d => Fin.ext (by
    match d with
    | ⟨0, _⟩ => exact projMM_rhs0 _ _
    | ⟨1, _⟩ => exact (projMM_rhs1 _ _).trans hk)
  rw [el, er]

theorem downMM_lhs0 (j : S128x2048.Idx) (q : dot_S128x768_S2048x768_S128x2048_1_1_0_0_n_n.contr.Idx) : (dot_S128x768_S2048x768_S128x2048_1_1_0_0_n_n.lhsIdx j q 0).val = (j 0).val := by
  unfold DotDims.lhsIdx
  rw [dif_neg (show ¬(0 : Fin S128x768.rank) ∈ dot_S128x768_S2048x768_S128x2048_1_1_0_0_n_n.lhsBatch by decide), dif_pos (show (0 : Fin S128x768.rank) ∈ dot_S128x768_S2048x768_S128x2048_1_1_0_0_n_n.lhsNonContracting by decide)]
  rfl
theorem downMM_lhs1 (j : S128x2048.Idx) (q : dot_S128x768_S2048x768_S128x2048_1_1_0_0_n_n.contr.Idx) : (dot_S128x768_S2048x768_S128x2048_1_1_0_0_n_n.lhsIdx j q 1).val = (q ⟨0, by decide⟩).val :=
  dot_S128x768_S2048x768_S128x2048_1_1_0_0_n_n.lhsIdx_val_of_single rfl j q
theorem downMM_rhs0 (j : S128x2048.Idx) (q : dot_S128x768_S2048x768_S128x2048_1_1_0_0_n_n.contr.Idx) : (dot_S128x768_S2048x768_S128x2048_1_1_0_0_n_n.rhsIdx j q 0).val = (j 1).val := by
  unfold DotDims.rhsIdx
  rw [dif_neg (show ¬(0 : Fin S2048x768.rank) ∈ dot_S128x768_S2048x768_S128x2048_1_1_0_0_n_n.rhsBatch by decide), dif_pos (show (0 : Fin S2048x768.rank) ∈ dot_S128x768_S2048x768_S128x2048_1_1_0_0_n_n.rhsNonContracting by decide)]
  rfl
theorem downMM_rhs1 (j : S128x2048.Idx) (q : dot_S128x768_S2048x768_S128x2048_1_1_0_0_n_n.contr.Idx) : (dot_S128x768_S2048x768_S128x2048_1_1_0_0_n_n.rhsIdx j q 1).val = (q ⟨0, by decide⟩).val :=
  dot_S128x768_S2048x768_S128x2048_1_1_0_0_n_n.rhsIdx_val_of_single rfl j q

/-- The down product: row `a` of the gated block against row `b` of the down block, summed over the shared last axis. -/
theorem downMM_apply (l : FVec Ideal S128x768 .bf16) (r : FVec Ideal S2048x768 .bf16) (a : Fin 128) (b : Fin 2048) :
    matmul dot_S128x768_S2048x768_S128x2048_1_1_0_0_n_n none l r (constant (F := Ideal) S128x2048 .f32 0x00000000#32) (ix2 a b) = ∑ k : Fin 768, l (ix2 a k) * r (ix2 b k) := by
  simp only [matmul]
  rw [Ideal.matmul_constant_zero_apply, ← Equiv.sum_comp (contrEquiv1 dot_S128x768_S2048x768_S128x2048_1_1_0_0_n_n 768 rfl rfl).symm]
  refine Finset.sum_congr rfl fun k _ => ?_
  have hk := contrEquiv1_symm_val dot_S128x768_S2048x768_S128x2048_1_1_0_0_n_n 768 rfl rfl k
  have el : dot_S128x768_S2048x768_S128x2048_1_1_0_0_n_n.lhsIdx (ix2 a b) ((contrEquiv1 dot_S128x768_S2048x768_S128x2048_1_1_0_0_n_n 768 rfl rfl).symm k) = ix2 a k := funext fun d => Fin.ext (by
    match d with
    | ⟨0, _⟩ => exact downMM_lhs0 _ _
    | ⟨1, _⟩ => exact (downMM_lhs1 _ _).trans hk)
  have er : dot_S128x768_S2048x768_S128x2048_1_1_0_0_n_n.rhsIdx (ix2 a b) ((contrEquiv1 dot_S128x768_S2048x768_S128x2048_1_1_0_0_n_n 768 rfl rfl).symm k) = ix2 b k := funext fun d => Fin.ext (by
    match d with
    | ⟨0, _⟩ => exact downMM_rhs0 _ _
    | ⟨1, _⟩ => exact (downMM_rhs1 _ _).trans hk)
  rw [el, er]

/-- A weight block after its conversion and the dropping of its unit axis, at an index. -/
theorem gateConv_apply (w : Vec Ideal S1x768x2048 .f32) (a : Fin 768) (b : Fin 2048) :
    k0_pay1 w (ix2 a b) = w (ix3 (0 : Fin 1) a b) := by
  unfold k0_pay1
  rw [shapeCast_self]
  exact shapeCast_1ab_ab_apply w _ a b
theorem upConv_apply (w : Vec Ideal S1x768x2048 .f32) (a : Fin 768) (b : Fin 2048) :
    k0_pay2 w (ix2 a b) = w (ix3 (0 : Fin 1) a b) := by
  unfold k0_pay2
  rw [shapeCast_self]
  exact shapeCast_1ab_ab_apply w _ a b
theorem downConv_apply (w : Vec Ideal S1x2048x768 .f32) (a : Fin 2048) (b : Fin 768) :
    k0_pay3 w (ix2 a b) = w (ix3 (0 : Fin 1) a b) := by
  unfold k0_pay3
  rw [shapeCast_self]
  exact shapeCast_1ab_ab_apply w _ a b

/-- The tile's arithmetic at row `r`, column `h`. -/
theorem tile_apply (x : Vec Ideal S1x128x2048 .f32) (G U : Vec Ideal S768x2048 .bf16) (D : Vec Ideal S2048x768 .bf16)
    (z : Fin 1) (r : Fin 128) (h : Fin 2048) :
    k0_pay4 x G U D (ix3 z r h)
      = ∑ i : Fin 768, ((∑ k : Fin 2048, x (ix3 (0 : Fin 1) r k) * G (ix2 i k))
            * Ideal.logistic (∑ k : Fin 2048, x (ix3 (0 : Fin 1) r k) * G (ix2 i k))
            * (∑ k : Fin 2048, x (ix3 (0 : Fin 1) r k) * U (ix2 i k))) * D (ix2 h i) := by
  unfold k0_pay4
  refine (shapeCast_ab_1ab_apply _ _ z r h).trans ?_
  refine (downMM_apply _ _ r h).trans ?_
  refine Finset.sum_congr rfl fun i _ => ?_
  refine congrArg (· * D (ix2 h i)) ?_
  show (matmul (F := Ideal) dot_S128x2048_S768x2048_S128x768_1_1_0_0_n_n none _ G _ (ix2 r i) * Ideal.logistic (matmul (F := Ideal) dot_S128x2048_S768x2048_S128x768_1_1_0_0_n_n none _ G _ (ix2 r i))) * matmul (F := Ideal) dot_S128x2048_S768x2048_S128x768_1_1_0_0_n_n none _ U _ (ix2 r i) = _
  rw [projMM_apply, projMM_apply]
  have e : ∀ k : Fin 2048, (truncf .bf16 (shapeCast S128x2048 x shapeCasts_S1x128x2048_S128x2048) bitsLt_bf16_f32 : FVec Ideal S128x2048 .bf16) (ix2 r k) = x (ix3 (0 : Fin 1) r k) :=
    fun k => shapeCast_1ab_ab_apply x _ r k
  simp only [e]

end Cert.KernelIdeal.Tile

end
-- ==== Proof.Result.lean ====
/-
  From tiles to the whole result.  Grid point t writes back the [1, 128, 2048] tile at block
  (t / 4, t mod 4, 0) of the [32, 512, 2048] array; that tile is the body's arithmetic of rows
  128·(t mod 4) … of expert t / 4's input and that expert's three weight blocks, which index by
  index is the specification read at (t / 4, 128·(t mod 4) + r, h).  The 128 tiles cover the
  array, so after the region the array is the specification; the reshape that follows flattens
  (expert, row) into one axis of 16384 and is kept as one operation on both sides.
-/
import proofs.«101355_j75892072120692_2_alg».proof.Proof.Carried
import proofs.«101355_j75892072120692_2_alg».proof.Proof.TileValue
import proofs.«101355_j75892072120692_2_alg».proof.Proof.Spec
import Idealize.ShloMosaic.Lib.Pipeline.Value
import Idealize.ShloMosaic.Lib.StableHlo.Run

set_option maxRecDepth 16384

noncomputable section

namespace Cert.KernelIdeal.Result

open Cert.KernelIdeal Cert.KernelIdeal.Gen Cert.KernelIdeal.Carried Cert.KernelIdeal.Tile
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The specification of the argument arrays as the region finds them: what the [32, 512, 2048] array ends holding. -/
def whole (c : Dev nD) : Buf (Elt Ideal) ((c : Thread nD τ).loc main_v0) :=
  Cert.Spec.out (V m c main_arg0) (V m c main_arg1) (V m c main_arg2) (V m c main_arg3)

/-- The row tile of a grid point, and the row of the array that row `r` of tile `q` is. -/
def rowTile (t : Fin cfg0.N) : Fin 4 := ⟨t.val % 4, Nat.mod_lt _ (by decide)⟩
def rowOf (q : Fin 4) (r : Fin 128) : Fin 512 := ⟨128 * q.val + r.val, by have := q.isLt; have := r.isLt; omega⟩

/-- Rows 128·q … 128·q + 127 of expert `e`'s input as a [1, 128, 2048] block. -/
def inBlk (c : Dev nD) (e : Fin 32) (q : Fin 4) : Vec Ideal S1x128x2048 .f32 := fun y => V m c main_arg0 (ix3 e (rowOf q (y 1)) (y 2))

/-- The input window's block at a point is that block. -/
theorem inBlk_iblk (c : Dev nD) (t : Fin cfg0.N) : (iblk m c 0 t : Vec Ideal S1x128x2048 .f32) = inBlk m c (expert t) (rowTile t) := by
  obtain ⟨x0, x1, x2, -⟩ := idx_facts t
  funext j
  unfold iblk inBlk
  rw [View.read_apply]
  show V m c main_arg0 _ = V m c main_arg0 _
  congr 1
  funext a
  apply Fin.ext
  have j0 : (j 0).val < 1 := (j 0).isLt
  match a with
  | ⟨0, _⟩ => show win0_0.index t (0 : Fin 3) * 1 + 1 * (j 0).val = t.val / 4; omega
  | ⟨1, _⟩ => show win0_0.index t (1 : Fin 3) * 128 + 1 * (j 1).val = 128 * (t.val % 4) + (j 1).val; omega
  | ⟨2, _⟩ => show win0_0.index t (2 : Fin 3) * 2048 + 1 * (j 2).val = (j 2).val; omega

/-- The body's arithmetic of expert `e`'s row tile `q` and that expert's converted blocks is the specification
    read at the tile's rows. -/
theorem tile_is_whole (c : Dev nD) (e : Fin 32) (q : Fin 4) (z : Fin 1) (r : Fin 128) (h : Fin 2048) :
    k0_pay4 (inBlk m c e q) (k0_pay1 (gateBlk m c e)) (k0_pay2 (upBlk m c e)) (k0_pay3 (downBlk m c e)) (ix3 z r h)
      = whole m c (ix3 e (rowOf q r) h) := by
  rw [tile_apply]
  simp only [gateConv_apply, upConv_apply, downConv_apply]
  unfold whole Cert.Spec.out Cert.Spec.gated Cert.Spec.proj inBlk gateBlk upBlk downBlk
  rfl

/-- What point `t` writes back is block `t` of the specification. -/
theorem flushed_eq (c : Dev nD) (t : Fin cfg0.N) :
    (dats m 0 c).flushed 4 t = ((cfg0.win 4).blk t).view.read (Elt Ideal) (whole m c) := by
  show (cfg0.win 4).cut (grid0.coords t) ((dats m 0 c).after 4 t) = _
  rw [after0_4, tile_at m c t, inBlk_iblk m c t]
  obtain ⟨-, -, -, -, -, -, -, -, -, -, -, -, o0, o1, o2⟩ := idx_facts t
  funext y
  rw [View.read_apply]
  show k0_pay4 (inBlk m c (expert t) (rowTile t)) (k0_pay1 (gateBlk m c (expert t))) (k0_pay2 (upBlk m c (expert t))) (k0_pay3 (downBlk m c (expert t))) y = whole m c (((cfg0.win 4).blk t).view.emb y)
  refine (congrArg _ (eq_ix3 y)).trans ((tile_is_whole m c (expert t) (rowTile t) (y 0) (y 1) (y 2)).trans (congrArg (whole m c) ?_))
  funext a
  apply Fin.ext
  have y0 : (y 0).val < 1 := (y 0).isLt
  match a with
  | ⟨0, _⟩ => show t.val / 4 = win0_4.index t (0 : Fin 3) * 1 + 1 * (y 0).val; omega
  | ⟨1, _⟩ => show 128 * (t.val % 4) + (y 1).val = win0_4.index t (1 : Fin 3) * 128 + 1 * (y 1).val; omega
  | ⟨2, _⟩ => show (y 2).val = win0_4.index t (2 : Fin 3) * 2048 + 1 * (y 2).val; omega

/-- An index of the array is in point `t`'s block iff each coordinate is in the block's range on its axis. -/
theorem mem_blk (t : Fin cfg0.N) (i : S32x512x2048.Idx) :
    i ∈ ((cfg0.win 4).blk t).view.set ↔ ∀ a : Fin 3, win0_4.index t a * S1x128x2048.size a ≤ (i a).val ∧ (i a).val < win0_4.index t a * S1x128x2048.size a + S1x128x2048.size a := by
  show i ∈ ((View.whole main_v0).slice (win0_4.rect t)).set ↔ _
  rw [View.set_slice_whole, Rect.mem_set_unit]
  exact Iff.rfl

/-- Every index (e, r, h) is in the block of point 4·e + r / 128. -/
theorem cover (i : S32x512x2048.Idx) : ∃ t : Fin cfg0.N, (cfg0.win 4).flush t = true ∧ i ∈ ((cfg0.win 4).blk t).view.set := by
  have hi0 : (i 0).val < 32 := (i 0).isLt
  have hi1 : (i 1).val < 512 := (i 1).isLt
  have hi2 : (i 2).val < 2048 := (i 2).isLt
  obtain ⟨t, ht⟩ : ∃ t : Fin cfg0.N, t.val = 4 * (i 0).val + (i 1).val / 128 :=
    ⟨⟨4 * (i 0).val + (i 1).val / 128, by rw [show cfg0.N = 128 from N_0]; omega⟩, rfl⟩
  obtain ⟨-, -, -, -, -, -, -, -, -, -, -, -, o0, o1, o2⟩ := idx_facts t
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 128 ≤ (i 1).val ∧ (i 1).val < win0_4.index t (1 : Fin 3) * 128 + 128; omega
  | ⟨2, _⟩ => show win0_4.index t (2 : Fin 3) * 2048 ≤ (i 2).val ∧ (i 2).val < win0_4.index t (2 : Fin 3) * 2048 + 2048; omega

/-- After the region the [32, 512, 2048] array is the specification. -/
theorem final (c : Dev nD) : (dats m 0 c).arrAt 4 cfg0.N = whole m c :=
  (dats m 0 c).arrAt_eq_of_cover 4 (whole m c) (fun t _ => flushed_eq m c t) cover

/-- The program's result: the reshape after the region applied to that array. -/
theorem result_eq (c : Dev nD) :
    Pipeline.afterTail₀ cfgs (dats m) 0 (V0 m) [hostOps1] c main_v1
      = shapeCast S16384x2048 (whole m c) shapeCasts_S32x512x2048_S16384x2048 := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.tc.devRef main_v0) = whole m c :=
    (Pipeline.withArrays_arr (cfgs 0).spec launch0.win.arr_inj c (V0 m c) (fun w => (dats m 0 c).arrAt w (cfgs 0).N) 4).trans (final m c)
  rw [e]
  rfl

/-- The run, read: the result at the reshaped specification, the four arguments unchanged. -/
theorem run : θ_run defs (onTc (τ := τ) (main (F := Ideal))) ⟨m, fun _ => 0, ρ⟩ fun r => ∀ c : Dev nD,
      r.2.mem ((c.tc : Thread nD τ).loc main_v1) = shapeCast S16384x2048 (whole m c) shapeCasts_S32x512x2048_S16384x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v1 (Pipeline.mem_restRefs_of main_v1 rfl (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Result

end
-- ==== Proof.lean ====
/-
  The certificate's claim.  Both idealized programs compute, per expert, the gated two-layer map
  of Proof/Spec.lean — out (e, r, h) = Σ_i (a_i · logistic a_i) · b_i · down (e, h, i) with a and b
  the gate and up projections of input row (e, r) — and then flatten (expert, row) into one axis.
  The kernel does it tile by tile, 128 rows of one expert at a time, with that expert's three
  weight blocks held in buffers it carries across the expert's four row tiles (Proof/Carried.lean,
  Proof/Result.lean); the reference does it with three batched contractions (Proof/RefIsSpec.lean).
  On the extended reals the two agree term by term: every sum runs over the same axis in the same
  order, the format conversions are the identity, and the kernel's logistic is the reference's
  1 / (1 + exp (-a)).  No algebraic law beyond that is used, so the precondition is never opened.
  The three frames are the generated ones; the idealization rewrote nothing, so `preserves` is trivial.
-/
import proofs.«101355_j75892072120692_2_alg».proof.Defs
import proofs.«101355_j75892072120692_2_alg».proof.Proof.Gen.Kernel
import proofs.«101355_j75892072120692_2_alg».proof.Proof.Gen.Kernel.Skeleton
import proofs.«101355_j75892072120692_2_alg».proof.Proof.Gen.Kernel.Launch
import proofs.«101355_j75892072120692_2_alg».proof.Proof.Gen.Kernel.Points
import proofs.«101355_j75892072120692_2_alg».proof.Proof.Gen.Kernel.Frame
import proofs.«101355_j75892072120692_2_alg».proof.Proof.Gen.KernelIdeal
import proofs.«101355_j75892072120692_2_alg».proof.Proof.Gen.KernelIdeal.Skeleton
import proofs.«101355_j75892072120692_2_alg».proof.Proof.Gen.KernelIdeal.Launch
import proofs.«101355_j75892072120692_2_alg».proof.Proof.Gen.KernelIdeal.Points
import proofs.«101355_j75892072120692_2_alg».proof.Proof.Gen.KernelIdeal.Frame
import proofs.«101355_j75892072120692_2_alg».proof.Proof.Gen.ReferenceIdeal
import proofs.«101355_j75892072120692_2_alg».proof.Proof.Gen.ReferenceIdeal.Run
import proofs.«101355_j75892072120692_2_alg».proof.Proof.Gen.ReferenceIdeal.Read
import proofs.«101355_j75892072120692_2_alg».proof.Proof.Gen.Pre_finite_inputs
import proofs.«101355_j75892072120692_2_alg».proof.Proof.RefIsSpec
import proofs.«101355_j75892072120692_2_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the reshaped specification of the (agreeing) arguments. -/
theorem algebraic : Cert.algebraic_KernelIdeal_ReferenceIdeal := by
  intro m ρ m' ρ' _ hagree
  refine ⟨fun c => shapeCast Cert.KernelIdeal.S16384x2048 (Cert.KernelIdeal.Result.whole m c) Cert.KernelIdeal.Facts₀.shapeCasts_S32x512x2048_S16384x2048,
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq]
  unfold Cert.ReferenceIdeal.Read.val_main_v5
  rw [Cert.RefValue.out_eq, (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
